-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x1024_S4x2048x1024 : S8192x1024.ShapeCasts S4x2048x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .f32 = 32 ∨ (Rect.block (s := S8192x1024) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x1024, .f32⟩
  | .hbm, ⟨3, _⟩ => ⟨S_, .f32⟩
  | .hbm, ⟨4, _⟩ => ⟨S4x2048x1024, .f32⟩
  | .hbm, ⟨5, _⟩ => ⟨S4x2048x1024, .i1⟩
  | .hbm, ⟨6, _⟩ => ⟨S4x2048x1024, .f32⟩
  | .hbm, ⟨7, _⟩ => ⟨S_, .f32⟩
  | .hbm, ⟨8, _⟩ => ⟨S4x2048x1024, .f32⟩
  | .hbm, ⟨9, _⟩ => ⟨S4x2048x1024, .f32⟩
  | .hbm, ⟨10, _⟩ => ⟨S_, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S4x2048x1024 : S_.BroadcastsInDim S4x2048x1024 (![] : Fin 0 → Fin S4x2048x1024.rank)
  dot_S4x2048x1024_S1024x1024_S4x2048x1024_2_0_01_1_n_n_wf : DotDims.WF S4x2048x1024 S1024x1024 S4x2048x1024 [2] [0] [0, 1] [1] [] []

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf

class Facts : Prop extends Facts₀ where

variable [Facts]
-- ==== Proof.Spec.lean ====
/-
  What both programs compute, as one function of the two argument arrays.

  With x of shape [4, 2048, 1024] and W of shape [1024, 1024], entry (b, s, n) of the result is
      log (max (Σ_{k < 1024} x[b, s, k] · W[k, n] + ε, τ)),
  where ε and τ are the two single-precision literals that both programs spell with the same words (the nearest floats
  to 1e-5 and 1e-12; they are never evaluated: the same extended real stands on both sides).

  The kernel computes this directly on the flattened [8192, 1024] view of x, eight row blocks of 1024 rows.
  The reference computes L = log (max (y + ε, τ)) twice and blends the two copies by the 0/1 mask u = [y > 0] and its
  complement, L·u + L·(1 − u). On the extended reals that blend is L for EVERY L, the infinities included, because
  L·0 = 0 and L·1 = L hold there without exception: no finiteness of the inputs is used (`blend_self`).
-/
import Idealize.ShloMosaic.PureOps.Ideal
import Idealize.ShloMosaic.Lib.ValueIdx

noncomputable section

namespace Cert.LogEpsMatmul

open Idealize.ShloMosaic Idealize.ShloMosaic.ValueIdx

/-- The shift by ε, the floor at τ and the logarithm, applied to one entry y of the matrix product. -/
def shiftLog (y : EReal) : EReal :=
  Ideal.log (max (y + Ideal.ofBits .f32 0x3727C5AC#32) (Ideal.ofBits .f32 0x2B8CBCCC#32))

/-- The result over the rank-3 input: entry (b, s, n) is `shiftLog` of row (b, s) of x against column n of W. -/
def spec3 (x : (⟨3, ![4, 2048, 1024]⟩ : Shape).Idx → EReal) (w : (⟨2, ![1024, 1024]⟩ : Shape).Idx → EReal) :
    (⟨3, ![4, 2048, 1024]⟩ : Shape).Idx → EReal :=
  fun i => shiftLog (∑ k : Fin 1024, x (ix3 (i 0) (i 1) k) * w (ix2 k (i 2)))

/-- The same over the flattened input: entry (r, n) is `shiftLog` of row r of the [8192, 1024] matrix against column n. -/
def spec2 (x2 : (⟨2, ![8192, 1024]⟩ : Shape).Idx → EReal) (w : (⟨2, ![1024, 1024]⟩ : Shape).Idx → EReal) :
    (⟨2, ![8192, 1024]⟩ : Shape).Idx → EReal :=
  fun j => shiftLog (∑ k : Fin 1024, x2 (ix2 (j 0) k) * w (ix2 k (j 1)))

/-- A one-bit word is 0 or 1. -/
theorem bit_cases (b : BitVec 1) : b = 0#1 ∨ b = 1#1 := by
  revert b; decide

/-- Blending a value with itself by a 0/1 mask and the mask's complement gives the value back:
    L·u + L·(1 − u) = L for u ∈ {0, 1}, for every extended real L (L·0 = 0 also at ±∞). -/
theorem blend_self (L : EReal) (b : BitVec 1) :
    L * ((b.toNat : ℝ) : EReal) + L * ((1 : EReal) - ((b.toNat : ℝ) : EReal)) = L := by
  rcases bit_cases b with rfl | rfl
  · have h0 : (((0#1 : BitVec 1).toNat : ℝ) : EReal) = 0 := by simp
    rw [h0, mul_zero, sub_zero, mul_one, zero_add]
  · have h1 : (((1#1 : BitVec 1).toNat : ℝ) : EReal) = 1 := by simp
    have h11 : (1 : EReal) - 1 = 0 := by
      rw [← EReal.coe_one, ← EReal.coe_sub, sub_self, EReal.coe_zero]
    rw [h1, h11, mul_one, mul_zero, add_zero]

end Cert.LogEpsMatmul

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibDotAnyPrecision.lean ====
/-
  A matrix unit's plain product into the zero accumulator, read at an entry, whatever its precision attribute.

  For the dimension numbers "contract the left operand's axis 1 with the right operand's axis 0, no batch axis"
  ([M, K] times [K, N]; general in the three extents), entry (p, g) of the product accumulated onto zero is the sum over
  k < K of the left operand at (p, k) times the right operand at (k, g). On the extended reals the precision attribute
  of the operation (absent, bf16 passes, or a full single-precision contraction) only chooses roundings, and there are
  none: the statement holds for every value of it. The sum itself is the plain-contraction lemma of LibPlainDot.lean
  (`Cert.PlainDot.sum_eq`), which this file imports: the two files go together.
-/
import proofs.«173592_j19490561589868_2_alg».proof.Proof.LibPlainDot

noncomputable section

namespace Cert.PlainDot

open Idealize.ShloMosaic Idealize.ShloMosaic.ValueIdx

/-- A matrix unit's product with the plain dimension numbers and ANY precision attribute, into the zero accumulator,
    at entry (p, g). -/
theorem matmul_zero_apply_prec {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (g : Fin N) :
    matmul (F := Ideal) d prec l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.Payload.lean ====
/-
  The kernel body's arithmetic at one entry of its output block.

  The body loads a [1024, 1024] block of the flattened input and the whole matrix W, multiplies them on the matrix unit
  into a zero accumulator, adds ε, floors at τ and takes the logarithm. At entry (p, q) of the block that is
      log (max (Σ_{k < 1024} X[p, k] · W[k, q] + ε, τ)),
  the specification's `shiftLog` of row p of the block against column q of W: the shape cast before the product casts
  the block to its own shape, the product into zero is the plain sum, and the rest is pointwise.
-/
import proofs.«173592_j19490561589868_2_alg».proof.Proof.Gen.KernelIdeal.Skeleton
import proofs.«173592_j19490561589868_2_alg».proof.Proof.Spec
import proofs.«173592_j19490561589868_2_alg».proof.Proof.LibDotAnyPrecision
import Idealize.ShloMosaic.Lib.Pipeline.Value

noncomputable section

namespace Cert.LogEpsMatmul.Kernel

open Cert.KernelIdeal Cert.KernelIdeal.Gen Cert.LogEpsMatmul
open Idealize.ShloMosaic Idealize.ShloMosaic.ValueIdx

/-- The body's stored value at entry (p, q), from the two loaded blocks. -/
theorem payload_apply (x0 x1 : Vec Ideal S1024x1024 .f32) (p q : Fin 1024) :
    k0_pay1 (F := Ideal) x0 x1 (ix2 p q) = shiftLog (∑ k : Fin 1024, x0 (ix2 p k) * x1 (ix2 k q)) := by
  unfold k0_pay1
  show Ideal.log (max
      (matmul (F := Ideal) dot_S1024x1024_S1024x1024_S1024x1024_1_0_0_1_n_n (some .fp32)
          (shapeCast S1024x1024 x0 shapeCasts_S1024x1024_S1024x1024) x1 (constant S1024x1024 .f32 0x00000000#32) (ix2 p q)
        + Ideal.ofBits .f32 0x3727C5AC#32)
      (Ideal.ofBits .f32 0x2B8CBCCC#32)) = _
  rw [shapeCast_self, PlainDot.matmul_zero_apply_prec dot_S1024x1024_S1024x1024_S1024x1024_1_0_0_1_n_n rfl]
  rfl

end Cert.LogEpsMatmul.Kernel

end
-- ==== Proof.Blocks.lean ====
/-
  From the eight row blocks to the whole flat result.

  Grid point t (t < 8) reads rows t·1024 … t·1024 + 1023 of the flattened input (all 1024 columns), the whole matrix W,
  and writes rows t·1024 … t·1024 + 1023 of the flat result. Entry (p, q) of what it writes is `shiftLog` of row p of
  its input block against column q of W (`payload_apply`), and row p of the block is row t·1024 + p of the flattened
  input: so the point writes exactly block t of the flat specification. Every row r of the [8192, 1024] result lies in
  the block of the point r / 1024, so the blocks cover the array and it ends holding the flat specification.
-/
import proofs.«173592_j19490561589868_2_alg».proof.Proof.Gen.KernelIdeal.Frame
import proofs.«173592_j19490561589868_2_alg».proof.Proof.Payload
import Idealize.ShloMosaic.Lib.Pipeline.Value

set_option maxRecDepth 16384

noncomputable section

namespace Cert.LogEpsMatmul.Kernel

open Cert.KernelIdeal Cert.KernelIdeal.Gen Cert.LogEpsMatmul
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The body's one store starts at the block's origin. -/
theorem origin_zero : (![0, 0] : Fin 2 → Nat) = fun _ => 0 := funext fun a => by fin_cases a <;> rfl

/-- The printed index maps, decided over the eight points: the input block and the output block of a point sit at the
    same block row, in block column 0; the matrix W is always its one block (0, 0); block rows stay below 8. -/
theorem index_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every block row below 8 is some point's. -/
theorem point_of_block_row : ∀ r : Fin 8, ∃ t : Fin cfg0.N, win0_2.index t = ![r.val, 0] :=
  (by decide +kernel : ∀ r : Fin 8, ∃ t : Fin grid0.N, win0_2.index t = ![r.val, 0])

/-- One entry of a point's result against the flat specification, over plain arrays and literal coordinates: if the
    point's input block X0 is the flat input A read through e0 and its matrix block X1 is W read through e1, and e0
    carries row p of the block to row r of A (column for column) while e1 is the identity on column q of W, then the
    body's entry (p, q) is the specification's entry (r, q). -/
theorem entry_of_block (A : S8192x1024.Idx → EReal) (B : S1024x1024.Idx → EReal)
    (X0 X1 : Vec Ideal S1024x1024 .f32) (p q : Fin 1024) (r : Fin 8192)
    (e0 : S1024x1024.Idx → S8192x1024.Idx) (e1 : S1024x1024.Idx → S1024x1024.Idx)
    (h0 : ∀ y, X0 y = A (e0 y)) (h1 : ∀ y, X1 y = B (e1 y))
    (hrow : ∀ k : Fin 1024, e0 (ix2 p k) = ix2 r k)
    (hcol : ∀ k : Fin 1024, e1 (ix2 k q) = ix2 k q) :
    k0_pay1 (F := Ideal) X0 X1 (ix2 p q) = spec2 A B (ix2 r q) := by
  rw [payload_apply]
  show shiftLog _ = shiftLog (∑ k : Fin 1024, A (ix2 r k) * B (ix2 k q))
  refine congrArg shiftLog (Finset.sum_congr rfl fun k _ => ?_)
  rw [h0, h1, hrow, hcol]

/-- WHAT POINT t WRITES BACK is block t of the flat specification of the arrays as the region finds them. -/
theorem flushed_eq (c : Dev nD) (t : Fin cfg0.N) :
    (dats m 0 c).flushed 2 t
      = ((cfg0.win 2).blk t).view.read (Elt Ideal) (spec2 (V m c main_v0) (V m c main_arg1)) := by
  show (cfg0.win 2).cut (grid0.coords t) ((dats m 0 c).after 2 t) = _
  rw [after0_2]
  unfold out0_2
  rw [View.canon_unit_zero origin_zero]
  simp only [View.ld_unit_zero (S := S1024x1024) origin_zero]
  obtain ⟨e0, e1, e2, e3, e4, e5⟩ := index_facts t
  funext (j : S1024x1024.Idx)
  obtain ⟨p, q, rfl⟩ : ∃ (p : Fin 1024) (q : Fin 1024), j = ix2 p q := ⟨j 0, j 1, eq_ix2 j⟩
  have hp : p.val < 1024 := p.isLt
  -- entry (p, q) of block t is entry (t·1024 + p, q) of the flat result
  have hemb : ((cfg0.win 2).blk t).view.emb (ix2 p q)
      = ix2 (⟨win0_2.index t (0 : Fin 2) * 1024 + p.val, by omega⟩ : Fin 8192) q := by
    funext a; apply Fin.ext
    match a with
    | ⟨0, _⟩ => show win0_2.index t (0 : Fin 2) * 1024 + 1 * p.val = win0_2.index t (0 : Fin 2) * 1024 + p.val; omega
    | ⟨1, _⟩ => show win0_2.index t (1 : Fin 2) * 1024 + 1 * q.val = q.val; omega
  show k0_pay1 (F := Ideal) (iblk m c 0 t) (iblk m c 1 t) (ix2 p q)
    = spec2 (V m c main_v0) (V m c main_arg1) (((cfg0.win 2).blk t).view.emb (ix2 p q))
  refine (entry_of_block (V m c main_v0) (V m c main_arg1) (iblk m c 0 t) (iblk m c 1 t) p q
    (⟨win0_2.index t (0 : Fin 2) * 1024 + p.val, by omega⟩ : Fin 8192)
    (fun y => ((cfg0.win 0).blk t).view.emb y) (fun y => ((cfg0.win 1).blk t).view.emb y)
    (fun y => rfl) (fun y => rfl) (fun k => ?_) (fun k => ?_)).trans
    (congrArg (spec2 (V m c main_v0) (V m c main_arg1)) hemb.symm)
  · funext a; apply Fin.ext
    match a with
    | ⟨0, _⟩ => show win0_0.index t (0 : Fin 2) * 1024 + 1 * p.val = win0_2.index t (0 : Fin 2) * 1024 + p.val; omega
    | ⟨1, _⟩ => show win0_0.index t (1 : Fin 2) * 1024 + 1 * k.val = k.val; omega
  · funext a; apply Fin.ext
    match a with
    | ⟨0, _⟩ => show win0_1.index t (0 : Fin 2) * 1024 + 1 * k.val = k.val; omega
    | ⟨1, _⟩ => show win0_1.index t (1 : Fin 2) * 1024 + 1 * q.val = q.val; omega

/-- An index of the flat result is in point t's block iff each coordinate is in the block's range on its axis. -/
theorem mem_block (t : Fin cfg0.N) (i : S8192x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v1).slice (win0_2.rect t)).set ↔ _
  rw [View.set_slice_whole, Rect.mem_set_unit]
  exact Iff.rfl

/-- THE COVER: row r of the flat result is in the block of the point at block row r / 1024, which writes it back. -/
theorem cover (i : S8192x1024.Idx) :
    ∃ t : Fin cfg0.N, (cfg0.win 2).flush t = true ∧ i ∈ ((cfg0.win 2).blk t).view.set := by
  have hi0 : (i 0).val < 8192 := (i 0).isLt
  have hi1 : (i 1).val < 1024 := (i 1).isLt
  obtain ⟨t, ht⟩ := point_of_block_row ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE FLAT RESULT after the region: the flat specification of the flattened input and W as the region finds them. -/
theorem final (c : Dev nD) : (dats m 0 c).arrAt 2 cfg0.N = spec2 (V m c main_v0) (V m c main_arg1) :=
  (dats m 0 c).arrAt_eq_of_cover 2 _ (fun t _ => flushed_eq m c t) cover

end Cert.LogEpsMatmul.Kernel

end
-- ==== Proof.LibFlatten.lean ====
/-
  Flattening shape casts read at an index written by coordinates: the two reshapes that merge adjacent axes of a
  row-major array, general in the extents.
  • `shapeCast_abc_nc_apply`  [a, b, c] → [n, c] with n = a·b : row i·b + j, column k reads (i, j, k)
  • `shapeCast_nc_ad_apply`   [n, c] → [a, d] with n = a·b, d = b·c : row p, lane q·c + r reads row p·b + q, column r
  Each is the parent lemma of Lib/Pipeline/Value.lean (`shapeCast_apply`: a shape cast reads the operand at the index
  with the same row-major position) with both indices written `ix2 …` / `ix3 …`; the row-major positions agree by the
  distributive law of the naturals.
-/
import Idealize.ShloMosaic.Lib.ValueLayout

namespace Cert.LibFlatten

open Idealize.ShloMosaic Idealize.ShloMosaic.ValueIdx

variable {α : Type}

/-- An `[a, b, c]` array cast to `[n, c]` (the two leading axes merged, so n = a·b) reads, at row `m = i·b + j` and
    column `k`, the operand at `(i, j, k)`: both have row-major position (i·b + j)·c + k. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (m : Fin n)
    (hm : m.val = i.val * b + j.val) :
    shapeCast ⟨2, ![n, c]⟩ x h (ix2 m k) = x (ix3 i j k) :=
  shapeCast_apply x h _ _ (by
    rw [Shape.rowMajor_val_three, Shape.rowMajor_val_two]
    show (i.val * b + j.val) * c + k.val = m.val * c + k.val
    rw [hm])

/-- An `[n, c]` array cast to `[a, d]` with `d = b·c` (each group of `b` consecutive rows laid side by side in one row)
    reads, at row `p` and lane `l = q·c + r`, the operand at row `m = p·b + q` and column `r`: both have row-major
    position p·b·c + q·c + r. -/
theorem shapeCast_nc_ad_apply {n c a d : ℕ} (b : ℕ) (x : (⟨2, ![n, c]⟩ : Shape).Idx → α)
    (h : (⟨2, ![n, c]⟩ : Shape).ShapeCasts ⟨2, ![a, d]⟩) (m : Fin n) (r : Fin c) (p : Fin a) (l : Fin d) (q : ℕ)
    (hd : d = b * c) (hm : m.val = p.val * b + q) (hl : l.val = q * c + r.val) :
    shapeCast ⟨2, ![a, d]⟩ x h (ix2 p l) = x (ix2 m r) :=
  shapeCast_apply x h _ _ (by
    rw [Shape.rowMajor_val_two, Shape.rowMajor_val_two]
    show m.val * c + r.val = p.val * d + l.val
    rw [hm, hl, hd, Nat.add_mul, Nat.mul_assoc, Nat.add_assoc])

end Cert.LibFlatten
-- ==== Proof.LibUnflatten.lean ====
/-
  The un-flattening shape cast read at an index written by coordinates, general in the extents: the reshape that
  splits the leading axis of a row-major matrix into two.
  • `shapeCast_nc_abc_apply`  [n, c] → [a, b, c] with n = a·b : entry (i, j, k) reads row i·b + j, column k
  It is the converse of the flattening cast [a, b, c] → [a·b, c]: a shape cast reads the operand at the index with the
  same row-major position (Lib/Pipeline/Value.lean `shapeCast_apply`), and (i·b + j)·c + k is the row-major position of
  (i, j, k) in [a, b, c] and of (i·b + j, k) in [a·b, c] alike.
-/
import Idealize.ShloMosaic.Lib.ValueLayout

namespace Cert.LibUnflatten

open Idealize.ShloMosaic Idealize.ShloMosaic.ValueIdx

variable {α : Type}

/-- An `[n, c]` matrix cast to `[a, b, c]` (the leading axis split in two, so n = a·b) reads, at `(i, j, k)`, the
    operand at row `m = i·b + j` and column `k`: both have row-major position (i·b + j)·c + k. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (m : Fin n)
    (hm : m.val = i.val * b + j.val) :
    shapeCast ⟨3, ![a, b, c]⟩ x h (ix3 i j k) = x (ix2 m k) :=
  shapeCast_apply x h _ _ (by
    rw [Shape.rowMajor_val_two, Shape.rowMajor_val_three]
    show m.val * c + k.val = (i.val * b + j.val) * c + k.val
    rw [hm])

end Cert.LibUnflatten
-- ==== Proof.FlatSpec.lean ====
/-
  The two reshapes around the kernel cancel against the specification.

  The kernel works on the [8192, 1024] matrix whose row b·2048 + s is row (b, s) of the [4, 2048, 1024] input, and its
  [8192, 1024] result is read back as [4, 2048, 1024] the same way. Both reshapes keep the row-major position, so
  entry (b, s, n) of the reshaped result is entry (b·2048 + s, n) of the flat specification, whose row b·2048 + s of the
  flattened input is row (b, s) of the input: the flat specification between the two reshapes is the rank-3 one.
-/
import proofs.«173592_j19490561589868_2_alg».proof.Proof.Spec
import proofs.«173592_j19490561589868_2_alg».proof.Proof.LibFlatten
import proofs.«173592_j19490561589868_2_alg».proof.Proof.LibUnflatten

noncomputable section

namespace Cert.LogEpsMatmul

open Idealize.ShloMosaic Idealize.ShloMosaic.ValueIdx

/-- Row (b, s) of the input sits at row b·2048 + s of the flattened matrix. -/
def flatRow (b : Fin 4) (s : Fin 2048) : Fin 8192 := ⟨b.val * 2048 + s.val, by have := b.isLt; have := s.isLt; omega⟩

/-- Flatten the input, apply the flat specification, split the rows again: the rank-3 specification. -/
theorem unflatten_spec2_flatten (x : (⟨3, ![4, 2048, 1024]⟩ : Shape).Idx → EReal)
    (w : (⟨2, ![1024, 1024]⟩ : Shape).Idx → EReal)
    (hin : (⟨3, ![4, 2048, 1024]⟩ : Shape).ShapeCasts ⟨2, ![8192, 1024]⟩)
    (hout : (⟨2, ![8192, 1024]⟩ : Shape).ShapeCasts ⟨3, ![4, 2048, 1024]⟩) :
    shapeCast ⟨3, ![4, 2048, 1024]⟩ (spec2 (shapeCast ⟨2, ![8192, 1024]⟩ x hin) w) hout = spec3 x w := by
  funext i
  obtain ⟨b, s, n, rfl⟩ : ∃ (b : Fin 4) (s : Fin 2048) (n : Fin 1024), i = ix3 b s n := ⟨i 0, i 1, i 2, eq_ix3 i⟩
  rw [LibUnflatten.shapeCast_nc_abc_apply _ hout b s n (flatRow b s) rfl]
  show shiftLog (∑ k : Fin 1024, shapeCast ⟨2, ![8192, 1024]⟩ x hin (ix2 (flatRow b s) k) * w (ix2 k n))
    = shiftLog (∑ k : Fin 1024, x (ix3 b s k) * w (ix2 k n))
  refine congrArg shiftLog (Finset.sum_congr rfl fun k _ => ?_)
  rw [LibFlatten.shapeCast_abc_nc_apply x hin b s k (flatRow b s) rfl]

end Cert.LogEpsMatmul

end
-- ==== Proof.KernelRun.lean ====
/-
  The kernel program's run, with its result named.

  Around the region the program has two host lines: before it, the input is flattened to [8192, 1024]; after it, the
  flat result is read back as [4, 2048, 1024]. The region leaves the flat specification of the flattened input and W in
  its output array (`final`), so the program's result is that array reshaped, which is the rank-3 specification of
  the two arguments as launched (`unflatten_spec2_flatten`). The arguments themselves end unchanged (the frame run).
-/
import proofs.«173592_j19490561589868_2_alg».proof.Proof.Blocks
import proofs.«173592_j19490561589868_2_alg».proof.Proof.FlatSpec
import Idealize.ShloMosaic.Lib.StableHlo.Run

set_option maxRecDepth 16384

noncomputable section

namespace Cert.LogEpsMatmul.Kernel

open Cert.KernelIdeal Cert.KernelIdeal.Gen Cert.LogEpsMatmul
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The host line before the region: the region finds the flattened input in its first window's array. -/
theorem flat_input (c : Dev nD) :
    (V m c main_v0 : S8192x1024.Idx → EReal)
      = shapeCast S8192x1024 (m ((c : Thread nD τ).loc main_arg0)) shapeCasts_S4x2048x1024_S8192x1024 := by
  show StableHlo.after hostOps0 (fun b => m (c, b)) (Proc.devRef .tc main_v0) = _
  after_results
  rfl

/-- The region's output array, as the host line after the region finds it: the flat specification of the flattened
    input and W as launched. -/
theorem flat_result (c : Dev nD) :
    (Pipeline.withArrays (cfgs 0).spec c (V0 m c) (fun w => (dats m 0 c).arrAt w (cfgs 0).N) (Proc.devRef .tc main_v1)
        : S8192x1024.Idx → EReal)
      = spec2 (shapeCast S8192x1024 (m ((c : Thread nD τ).loc main_arg0)) shapeCasts_S4x2048x1024_S8192x1024)
          (m ((c : Thread nD τ).loc main_arg1)) :=
  (Pipeline.withArrays_arr spec0 launch0.win.arr_inj c _ _ 2).trans
    ((final m c).trans (congrArg₂ spec2 (flat_input m c) (V_main_arg1 m c)))

/-- The program's result after the host line that follows the region: the rank-3 specification of the arguments. -/
theorem result_value (c : Dev nD) :
    (Pipeline.afterTail₀ cfgs (dats m) 0 (V0 m) [hostOps1] c main_v2 : S4x2048x1024.Idx → EReal)
      = spec3 (m ((c : Thread nD τ).loc main_arg0)) (m ((c : Thread nD τ).loc main_arg1)) := by
  unfold Pipeline.afterTail₀
  show StableHlo.after hostOps1 _ (Proc.devRef .tc main_v2) = _
  after_results
  show shapeCast S4x2048x1024
      (Pipeline.withArrays (cfgs 0).spec c (V0 m c) (fun w => (dats m 0 c).arrAt w (cfgs 0).N) (Proc.devRef .tc main_v1))
      shapeCasts_S8192x1024_S4x2048x1024 = _
  exact (congrArg (fun A : S8192x1024.Idx → EReal => shapeCast S4x2048x1024 A shapeCasts_S8192x1024_S4x2048x1024)
    (flat_result m c)).trans (unflatten_spec2_flatten _ _ _ _)

/-- THE KERNEL PROGRAM'S RUN at the extended reals: every weakly fair execution terminates without a fault, its result
    is the specification of the arguments as launched, and the arguments end unchanged. -/
theorem run : θ_run defs (onTc (τ := τ) (main (F := Ideal))) ⟨m, fun _ => 0, ρ⟩ fun r => ∀ c : Dev nD,
      r.2.mem ((c.tc : Thread nD τ).loc main_v2)
        = spec3 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 (by decide) (by decide))).trans (result_value m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.LogEpsMatmul.Kernel

end
-- ==== Proof.RefIsSpec.lean ====
/-
  The reference's result is the specification.

  Read one operation at a time, entry i = (b, s, n) of the reference's result is
      L · u + L · (1 − u),   L = log (max (y + ε, τ)),   u = [y > 0] read as 0 or 1,   y = Σ_k x[b, s, k] · W[k, n],
  the two copies of L being the same expression of the same y (the reference adds ε and floors at τ twice, with the
  same two literal words). The blend is L (`blend_self`), which is the specification's entry.
-/
import proofs.«173592_j19490561589868_2_alg».proof.Proof.Gen.ReferenceIdeal.Read
import proofs.«173592_j19490561589868_2_alg».proof.Proof.Spec
import Idealize.ShloMosaic.Lib.IdealHost

noncomputable section

namespace Cert.LogEpsMatmul.Reference

open Cert.ReferenceIdeal Cert.ReferenceIdeal.Read Cert.LogEpsMatmul
open Idealize.ShloMosaic Idealize.ShloMosaic.ValueIdx

/-- The left operand's index of the contraction at output entry i and position k: row (i 0, i 1) of x, column k. -/
theorem lidx_eq (i : S4x2048x1024.Idx) (k : Fin 1024) : lidx_main_v0 i k = ix3 (i 0) (i 1) k :=
  funext fun a => Fin.ext (by match a with | ⟨0, _⟩ => rfl | ⟨1, _⟩ => rfl | ⟨2, _⟩ => rfl)

/-- The right operand's index: row k of W, column i 2. -/
theorem ridx_eq (i : S4x2048x1024.Idx) (k : Fin 1024) : ridx_main_v0 i k = ix2 k (i 2) :=
  funext fun a => Fin.ext (by match a with | ⟨0, _⟩ => rfl | ⟨1, _⟩ => rfl)

/-- The reference's last stage, as a function of the two arguments, is the specification. -/
theorem reference_is_spec (x : (⟨S4x2048x1024, .f32⟩ : BufTy).Contents (Elt Ideal))
    (w : (⟨S1024x1024, .f32⟩ : BufTy).Contents (Elt Ideal)) :
    val_main_v18 (F := Ideal) x w = spec3 x w := by
  funext i
  simp only [val_main_v18_apply, val_main_v17_apply, val_main_v16_apply, val_main_v15_apply, val_main_v14_apply,
    val_main_v13_apply, val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_cst_apply, val_main_cst_0_apply, val_main_cst_1_apply, val_main_cst_2_apply,
    val_main_cst_3_apply, val_main_cst_4_apply, val_main_v0_apply, lidx_eq, ridx_eq,
    Ideal.addf_def, Ideal.mulf_def, Ideal.subf_def, Ideal.maximumf_def, Ideal.hostUnary_log_def, Ideal.ofBits_def,
    Ideal.ofBits_one_f32]
  exact blend_self _ _

end Cert.LogEpsMatmul.Reference

end
-- ==== Proof.lean ====
/-
  A matrix product followed by log (max (· + ε, τ)): the kernel against its reference, on the extended reals.

  With x of shape [4, 2048, 1024] and W of shape [1024, 1024], both programs return, at entry (b, s, n),
      log (max (Σ_{k < 1024} x[b, s, k] · W[k, n] + ε, τ)),
  ε and τ the two single-precision literals that both spell with the same words.

  • The kernel flattens x to [8192, 1024], runs eight grid points — point t multiplies rows t·1024 … t·1024 + 1023 by
    the whole of W on the matrix unit, shifts, floors and takes the logarithm — and reads the flat result back as
    [4, 2048, 1024]. Each point writes its block of the flat specification, the blocks cover the flat result, and the
    two reshapes keep row-major positions (Proof/Payload, Proof/Blocks, Proof/FlatSpec, Proof/KernelRun).
  • The reference forms y by one contraction, computes L = log (max (y + ε, τ)) twice, and returns
    L·u + L·(1 − u) for the 0/1 mask u = [y > 0]. That is L for every extended real L, since L·0 = 0 and L·1 = L
    hold there without exception (Proof/Spec `blend_self`, Proof/RefIsSpec).

  A matrix-unit product into a zero accumulator and the host's contraction are the same finite sum on the extended
  reals, whatever the precision attribute; no step of the argument needs the inputs to be finite, so the precondition
  is not opened. The idealized kernel is the kernel's own text read on the extended reals (no operation was rewritten),
  so that conjunct is trivial. The three frames are the generated frame runs (the reference's being its generated run
  with the result dropped).
-/
import proofs.«173592_j19490561589868_2_alg».proof.Defs
import proofs.«173592_j19490561589868_2_alg».proof.Proof.Gen.Kernel
import proofs.«173592_j19490561589868_2_alg».proof.Proof.Gen.Kernel.Frame
import proofs.«173592_j19490561589868_2_alg».proof.Proof.Gen.KernelIdeal
import proofs.«173592_j19490561589868_2_alg».proof.Proof.Gen.KernelIdeal.Frame
import proofs.«173592_j19490561589868_2_alg».proof.Proof.Gen.ReferenceIdeal
import proofs.«173592_j19490561589868_2_alg».proof.Proof.Gen.Pre_finite_inputs
import proofs.«173592_j19490561589868_2_alg».proof.Proof.Gen.ReferenceIdeal.Run
import proofs.«173592_j19490561589868_2_alg».proof.Proof.Gen.ReferenceIdeal.Read
import proofs.«173592_j19490561589868_2_alg».proof.Proof.KernelRun
import proofs.«173592_j19490561589868_2_alg».proof.Proof.RefIsSpec

noncomputable section

namespace Cert.Proof

open Idealize.ShloMosaic Idealize.ShloMosaic.TcCoe Idealize.SL.Sem Cert.LogEpsMatmul

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on x and W both programs end with the specification of x and W in their result. -/
theorem algebraic : Cert.algebraic_KernelIdeal_ReferenceIdeal := by
  intro m ρ m' ρ' _ hagree
  refine ⟨fun c => spec3 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Reference.reference_is_spec, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
